-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8x16x32x32x64 : Shape := ⟨6, ![2, 8, 16, 32, 32, 64]⟩
abbrev S_ : Shape := ⟨0, ![]⟩

class Facts : Prop where
  bcast_S_S2x8x16x32x32x64 : S_.BroadcastsInDim S2x8x16x32x32x64 (![] : Fin 0 → Fin S2x8x16x32x32x64.rank)
  reducesTo_S2x8x16x32x32x64_S_d0_1_2_3_4_5 : S2x8x16x32x32x64.ReducesTo [0, 1, 2, 3, 4, 5] S_
  h_S_ : 0 < S_.numel

variable [Facts]

def fn {F : FTy → Type} [FloatOps F] (main_arg0 : FVec F S2x8x16x32x32x64 .f32) (main_arg1 : FVec F S2x8x16x32x32x64 .f32) (main_arg2 : FVec F S2x8x16x32x32x64 .f32) : IVec S_ 1 :=
  let main_v0 : FVec F S2x8x16x32x32x64 .f32 := Host.absf main_arg0
  let main_cst : FVec F S_ .f32 := constant S_ .f32 0x7F800000#32
  let main_v1 : FVec F S2x8x16x32x32x64 .f32 := broadcastInDim S2x8x16x32x32x64 ![] bcast_S_S2x8x16x32x32x64 main_cst
  let main_v2 : IVec S2x8x16x32x32x64 1 := cmpf .olt main_v0 main_v1
  let main_c : IVec S_ 1 := constantI S_ 1 1#1
  let main_v3 : IVec S_ 1 := (fun x v => Host.reduce IntOp.andi x v reducesTo_S2x8x16x32x32x64_S_d0_1_2_3_4_5 h_S_) main_v2 main_c
  let main_v4 : FVec F S2x8x16x32x32x64 .f32 := Host.absf main_arg1
  let main_cst_0 : FVec F S_ .f32 := constant S_ .f32 0x7F800000#32
  let main_v5 : FVec F S2x8x16x32x32x64 .f32 := broadcastInDim S2x8x16x32x32x64 ![] bcast_S_S2x8x16x32x32x64 main_cst_0
  let main_v6 : IVec S2x8x16x32x32x64 1 := cmpf .olt main_v4 main_v5
  let main_c_1 : IVec S_ 1 := constantI S_ 1 1#1
  let main_v7 : IVec S_ 1 := (fun x v => Host.reduce IntOp.andi x v reducesTo_S2x8x16x32x32x64_S_d0_1_2_3_4_5 h_S_) main_v6 main_c_1
  let main_v8 : IVec S_ 1 := andi main_v3 main_v7
  let main_v9 : FVec F S2x8x16x32x32x64 .f32 := Host.absf main_arg2
  let main_cst_2 : FVec F S_ .f32 := constant S_ .f32 0x7F800000#32
  let main_v10 : FVec F S2x8x16x32x32x64 .f32 := broadcastInDim S2x8x16x32x32x64 ![] bcast_S_S2x8x16x32x32x64 main_cst_2
  let main_v11 : IVec S2x8x16x32x32x64 1 := cmpf .olt main_v9 main_v10
  let main_c_3 : IVec S_ 1 := constantI S_ 1 1#1
  let main_v12 : IVec S_ 1 := (fun x v => Host.reduce IntOp.andi x v reducesTo_S2x8x16x32x32x64_S_d0_1_2_3_4_5 h_S_) main_v11 main_c_3
  let main_v13 : IVec S_ 1 := andi main_v8 main_v12
  main_v13
-- ==== Kernel.lean ====
abbrev S2x8x16x32x32x64 : Shape := ⟨6, ![2, 8, 16, 32, 32, 64]⟩
abbrev S256x32x2048 : Shape := ⟨3, ![256, 32, 2048]⟩
abbrev S8x32x2048 : Shape := ⟨3, ![8, 32, 2048]⟩
abbrev S8x32x32x64 : Shape := ⟨4, ![8, 32, 32, 64]⟩
abbrev S256x32x64 : Shape := ⟨3, ![256, 32, 64]⟩
abbrev S256x32x32 : Shape := ⟨3, ![256, 32, 32]⟩
abbrev S256x32 : Shape := ⟨2, ![256, 32]⟩
abbrev S256x32x1 : Shape := ⟨3, ![256, 32, 1]⟩

abbrev nBuf : Space → Nat
  | .hbm => 8
  | .vmem => 8
  | .smem => 0
  | _ => 0

abbrev bufTy : (tb : Table) → Fin (tcTables nBuf tb) → BufTy
  | .hbm, ⟨0, _⟩ => ⟨S2x8x16x32x32x64, .f32⟩
  | .hbm, ⟨1, _⟩ => ⟨S2x8x16x32x32x64, .f32⟩
  | .hbm, ⟨2, _⟩ => ⟨S2x8x16x32x32x64, .f32⟩
  | .hbm, ⟨3, _⟩ => ⟨S256x32x2048, .f32⟩
  | .hbm, ⟨4, _⟩ => ⟨S256x32x2048, .f32⟩
  | .hbm, ⟨5, _⟩ => ⟨S256x32x2048, .f32⟩
  | .hbm, ⟨6, _⟩ => ⟨S256x32x2048, .f32⟩
  | .hbm, ⟨7, _⟩ => ⟨S2x8x16x32x32x64, .f32⟩
  | .local _ .vmem, ⟨0, _⟩ => ⟨S8x32x2048, .f32⟩
  | .local _ .vmem, ⟨1, _⟩ => ⟨S8x32x2048, .f32⟩
  | .local _ .vmem, ⟨2, _⟩ => ⟨S8x32x2048, .f32⟩
  | .local _ .vmem, ⟨3, _⟩ => ⟨S8x32x2048, .f32⟩
  | .local _ .vmem, ⟨4, _⟩ => ⟨S8x32x2048, .f32⟩
  | .local _ .vmem, ⟨5, _⟩ => ⟨S8x32x2048, .f32⟩
  | .local _ .vmem, ⟨6, _⟩ => ⟨S8x32x2048, .f32⟩
  | .local _ .vmem, ⟨7, _⟩ => ⟨S8x32x2048, .f32⟩
  | _, _ => ⟨S2x8x16x32x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x32x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x32x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x32x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x32x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S2x8x16x32x32x64_S256x32x2048 : S2x8x16x32x32x64.ShapeCasts S256x32x2048
  inb_S8x32x2048_S8x32x2048_0_0_0 : ∀ a, (![0, 0, 0] : Fin 3 → Nat) a + S8x32x2048.size a ≤ S8x32x2048.size a
  h_S8x32x2048 : 0 < S8x32x2048.numel
  shapeCasts_S8x32x2048_S8x32x2048 : S8x32x2048.ShapeCasts S8x32x2048
  bitsLt_bf16_f32 : FTy.bits .bf16 < FTy.bits .f32
  shapeCasts_S8x32x2048_S8x32x32x64 : S8x32x2048.ShapeCasts S8x32x32x64
  transposes_S8x32x32x64_p0_2_1_3_S8x32x32x64 : S8x32x32x64.Transposes [0, 2, 1, 3] S8x32x32x64
  shapeCasts_S8x32x32x64_S256x32x64 : S8x32x32x64.ShapeCasts S256x32x64
  reduces_S256x32x32_S256x32 : S256x32x32.Reduces [2] S256x32
  shapeCasts_S256x32_S256x32x1 : S256x32.ShapeCasts S256x32x1
  broadcasts_S256x32x1_S256x32x32 : S256x32x1.Broadcasts S256x32x32
  shapeCasts_S256x32x64_S8x32x32x64 : S256x32x64.ShapeCasts S8x32x32x64
  shapeCasts_S8x32x32x64_S8x32x2048 : S8x32x32x64.ShapeCasts S8x32x2048
  shapeCasts_S256x32x2048_S2x8x16x32x32x64 : S256x32x2048.ShapeCasts S2x8x16x32x32x64
  dot_S256x32x64_S256x32x64_S256x32x32_2_2_1_1_0_0_wf : DotDims.WF S256x32x64 S256x32x64 S256x32x32 [2] [2] [1] [1] [0] [0]
  dot_S256x32x32_S256x32x64_S256x32x64_2_1_1_2_0_0_wf : DotDims.WF S256x32x32 S256x32x64 S256x32x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x32x2048.size a ≤ S256x32x2048.size a
  hwx0_0 : ∀ i : grid0.Coords, EltTy.bits .f32 = 32 ∨ (Rect.block (s := S256x32x2048) S8x32x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x32x2048.size a ≤ S256x32x2048.size a
  hwx0_1 : ∀ i : grid0.Coords, EltTy.bits .f32 = 32 ∨ (Rect.block (s := S256x32x2048) S8x32x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x32x2048.size a ≤ S256x32x2048.size a
  hwx0_2 : ∀ i : grid0.Coords, EltTy.bits .f32 = 32 ∨ (Rect.block (s := S256x32x2048) S8x32x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x32x2048.size a ≤ S256x32x2048.size a
  hwx0_3 : ∀ i : grid0.Coords, EltTy.bits .f32 = 32 ∨ (Rect.block (s := S256x32x2048) S8x32x2048.size (cc0_transform_3 i) (hinb0_3 i)).WholeWords (EltTy.packing .f32)

variable [Facts₀]

def dot_S256x32x64_S256x32x64_S256x32x32_2_2_1_1_0_0 : DotDims S256x32x64 S256x32x64 S256x32x32 where
  lhsContracting := [2]
  rhsContracting := [2]
  lhsNonContracting := [1]
  rhsNonContracting := [1]
  lhsBatch := [0]
  rhsBatch := [0]
  wf := dot_S256x32x64_S256x32x64_S256x32x32_2_2_1_1_0_0_wf
def dot_S256x32x32_S256x32x64_S256x32x64_2_1_1_2_0_0 : DotDims S256x32x32 S256x32x64 S256x32x64 where
  lhsContracting := [2]
  rhsContracting := [1]
  lhsNonContracting := [1]
  rhsNonContracting := [2]
  lhsBatch := [0]
  rhsBatch := [0]
  wf := dot_S256x32x32_S256x32x64_S256x32x64_2_1_1_2_0_0_wf

abbrev win0_0 : Pipeline.Window sig grid0 :=
  Pipeline.Window.ofSpec (Memref.whole main_v0) S8x32x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x32x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x32x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S8x32x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x8x16x32x32x64 : Shape := ⟨6, ![2, 8, 16, 32, 32, 64]⟩
abbrev S8192x32x64 : Shape := ⟨3, ![8192, 32, 64]⟩
abbrev S_ : Shape := ⟨0, ![]⟩
abbrev S8192x32x32 : Shape := ⟨3, ![8192, 32, 32]⟩
abbrev S8192x32 : Shape := ⟨2, ![8192, 32]⟩
abbrev S8192x32x1 : Shape := ⟨3, ![8192, 32, 1]⟩

abbrev nBuf : Space → Nat
  | .hbm => 33
  | .vmem => 0
  | .smem => 0
  | _ => 0

abbrev bufTy : (tb : Table) → Fin (tcTables nBuf tb) → BufTy
  | .hbm, ⟨0, _⟩ => ⟨S2x8x16x32x32x64, .f32⟩
  | .hbm, ⟨1, _⟩ => ⟨S2x8x16x32x32x64, .f32⟩
  | .hbm, ⟨2, _⟩ => ⟨S2x8x16x32x32x64, .f32⟩
  | .hbm, ⟨3, _⟩ => ⟨S2x8x16x32x32x64, .f32⟩
  | .hbm, ⟨4, _⟩ => ⟨S2x8x16x32x32x64, .f32⟩
  | .hbm, ⟨5, _⟩ => ⟨S2x8x16x32x32x64, .f32⟩
  | .hbm, ⟨6, _⟩ => ⟨S8192x32x64, .f32⟩
  | .hbm, ⟨7, _⟩ => ⟨S8192x32x64, .f32⟩
  | .hbm, ⟨8, _⟩ => ⟨S8192x32x64, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8192x32x32, .f32⟩
  | .hbm, ⟨14, _⟩ => ⟨S8192x32x32, .f32⟩
  | .hbm, ⟨15, _⟩ => ⟨S8192x32x32, .f32⟩
  | .hbm, ⟨16, _⟩ => ⟨S_, .f32⟩
  | .hbm, ⟨17, _⟩ => ⟨S8192x32, .f32⟩
  | .hbm, ⟨18, _⟩ => ⟨S_, .f32⟩
  | .hbm, ⟨19, _⟩ => ⟨S8192x32, .f32⟩
  | .hbm, ⟨20, _⟩ => ⟨S8192x32, .f32⟩
  | .hbm, ⟨21, _⟩ => ⟨S8192x32x1, .f32⟩
  | .hbm, ⟨22, _⟩ => ⟨S8192x32x32, .f32⟩
  | .hbm, ⟨23, _⟩ => ⟨S8192x32x32, .f32⟩
  | .hbm, ⟨24, _⟩ => ⟨S8192x32x32, .f32⟩
  | .hbm, ⟨25, _⟩ => ⟨S_, .f32⟩
  | .hbm, ⟨26, _⟩ => ⟨S8192x32, .f32⟩
  | .hbm, ⟨27, _⟩ => ⟨S8192x32x1, .f32⟩
  | .hbm, ⟨28, _⟩ => ⟨S8192x32x32, .f32⟩
  | .hbm, ⟨29, _⟩ => ⟨S8192x32x32, .f32⟩
  | .hbm, ⟨30, _⟩ => ⟨S8192x32x64, .f32⟩
  | .hbm, ⟨31, _⟩ => ⟨S2x8x16x32x32x64, .f32⟩
  | .hbm, ⟨32, _⟩ => ⟨S2x8x16x32x32x64, .f32⟩
  | _, _ => ⟨S2x8x16x32x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]

class Facts₀ : Prop where
  transposes_S2x8x16x32x32x64_S2x8x16x32x32x64_0_1_2_4_3_5 : S2x8x16x32x32x64.Transposes [0, 1, 2, 4, 3, 5] S2x8x16x32x32x64
  shapeCasts_S2x8x16x32x32x64_S8192x32x64 : S2x8x16x32x32x64.ShapeCasts S8192x32x64
  bcast_S_S8192x32x32 : S_.BroadcastsInDim S8192x32x32 (![] : Fin 0 → Fin S8192x32x32.rank)
  reducesTo_S8192x32x32_S8192x32_d2 : S8192x32x32.ReducesTo [2] S8192x32
  h_S_ : 0 < S_.numel
  bcast_S_S8192x32 : S_.BroadcastsInDim S8192x32 (![] : Fin 0 → Fin S8192x32.rank)
  bcast_S8192x32_S8192x32x1_0_1 : S8192x32.BroadcastsInDim S8192x32x1 (![0, 1] : Fin 2 → Fin S8192x32x1.rank)
  bcast_S8192x32x1_S8192x32x32_0_1_2 : S8192x32x1.BroadcastsInDim S8192x32x32 (![0, 1, 2] : Fin 3 → Fin S8192x32x32.rank)
  shapeCasts_S8192x32x64_S2x8x16x32x32x64 : S8192x32x64.ShapeCasts S2x8x16x32x32x64
  dot_S8192x32x64_S8192x32x64_S8192x32x32_2_2_1_1_0_0_wf : DotDims.WF S8192x32x64 S8192x32x64 S8192x32x32 [2] [2] [1] [1] [0] [0]
  dot_S8192x32x32_S8192x32x64_S8192x32x64_2_1_1_2_0_0_wf : DotDims.WF S8192x32x32 S8192x32x64 S8192x32x64 [2] [1] [1] [2] [0] [0]

variable [Facts₀]

def dot_S8192x32x64_S8192x32x64_S8192x32x32_2_2_1_1_0_0 : DotDims S8192x32x64 S8192x32x64 S8192x32x32 where
  lhsContracting := [2]
  rhsContracting := [2]
  lhsNonContracting := [1]
  rhsNonContracting := [1]
  lhsBatch := [0]
  rhsBatch := [0]
  wf := dot_S8192x32x64_S8192x32x64_S8192x32x32_2_2_1_1_0_0_wf
def dot_S8192x32x32_S8192x32x64_S8192x32x64_2_1_1_2_0_0 : DotDims S8192x32x32 S8192x32x64 S8192x32x64 where
  lhsContracting := [2]
  rhsContracting := [1]
  lhsNonContracting := [1]
  rhsNonContracting := [2]
  lhsBatch := [0]
  rhsBatch := [0]
  wf := dot_S8192x32x32_S8192x32x64_S8192x32x64_2_1_1_2_0_0_wf

class Facts : Prop extends Facts₀ where

variable [Facts]
-- ==== Proof.KerStages.lean ====
/-
  The kernel body's arithmetic, stage by stage.

  One grid point loads three blocks of shape [8, 32, 2048] (queries, keys, values: 8 slabs, 32 positions, 32 columns of
  64 channels side by side in the last axis). Each block is re-laid as 256 rows of shape [32, 64] — row bb·32 + w is
  column w of slab bb, positions down, channels across. Then: scores = (queries · keysᵀ) · 1/8 per row-batch; softmax
  along the last axis; output = weights · values; and the result is re-laid back to [8, 32, 2048]. The body's stored value
  is the composition of these stages.
-/
import proofs.«107295_j42975442764618_2_alg».proof.Proof.Gen.KernelIdeal.Skeleton
import Idealize.ShloMosaic.PureOps.Ideal

noncomputable section

namespace Cert.AxialAttn.Ker

open Cert.KernelIdeal Cert.KernelIdeal.Gen
open Idealize.ShloMosaic

/-- A loaded block re-laid as 256 batch rows of [32, 64]. -/
def relay (x : Vec Ideal S8x32x2048 .f32) : FVec Ideal S256x32x64 .bf16 :=
  shapeCast S256x32x64
    (transpose S8x32x32x64 [0, 2, 1, 3]
      (shapeCast S8x32x32x64
        (truncf .bf16 (shapeCast S8x32x2048 x shapeCasts_S8x32x2048_S8x32x2048) bitsLt_bf16_f32)
        shapeCasts_S8x32x2048_S8x32x32x64)
      transposes_S8x32x32x64_p0_2_1_3_S8x32x32x64)
    shapeCasts_S8x32x32x64_S256x32x64

/-- The scaled scores of every batch row. -/
def scores (a b : FVec Ideal S256x32x64 .bf16) : FVec Ideal S256x32x32 .f32 :=
  mulf (matmul dot_S256x32x64_S256x32x64_S256x32x32_2_2_1_1_0_0 none a b (constant S256x32x32 .f32 0x00000000#32))
    (broadcast S256x32x32 (Scalar.ofBits .f32 0x3E000000#32))

/-- Each score row's maximum from -∞, and the maximum with -∞ again. -/
def rowmax (sc : FVec Ideal S256x32x32 .f32) : FVec Ideal S256x32 .f32 :=
  maximumf (broadcast S256x32 (Scalar.ofBits .f32 0xFF800000#32))
    (multiReduction .maximumf [2] S256x32 sc 0xFF800000#32 reduces_S256x32x32_S256x32 (.inl rfl) rfl)

/-- The exponentials of the scores minus their row's maximum. -/
def expo (sc : FVec Ideal S256x32x32 .f32) : FVec Ideal S256x32x32 .f32 :=
  exp (subf sc (broadcastTo S256x32x32 (shapeCast S256x32x1 (rowmax sc) shapeCasts_S256x32_S256x32x1)
    broadcasts_S256x32x1_S256x32x32))

/-- The softmax weights: the exponentials over their row sums. -/
def weights (sc : FVec Ideal S256x32x32 .f32) : FVec Ideal S256x32x32 .f32 :=
  divf (expo sc) (broadcastTo S256x32x32
    (shapeCast S256x32x1
      (multiReduction .add [2] S256x32 (expo sc) 0x00000000#32 reduces_S256x32x32_S256x32 (.inl rfl) rfl)
      shapeCasts_S256x32_S256x32x1)
    broadcasts_S256x32x1_S256x32x32)

/-- The weighted sums of the values, re-laid back to the block's shape. -/
def output (p : FVec Ideal S256x32x32 .f32) (vv : FVec Ideal S256x32x64 .bf16) : FVec Ideal S8x32x2048 .f32 :=
  shapeCast S8x32x2048
    (transpose S8x32x32x64 [0, 2, 1, 3]
      (shapeCast S8x32x32x64
        (matmul dot_S256x32x32_S256x32x64_S256x32x64_2_1_1_2_0_0 none (truncf .bf16 p bitsLt_bf16_f32) vv
          (constant S256x32x64 .f32 0x00000000#32))
        shapeCasts_S256x32x64_S8x32x32x64)
      transposes_S8x32x32x64_p0_2_1_3_S8x32x32x64)
    shapeCasts_S8x32x32x64_S8x32x2048

/-- The body's stored value is the stages composed. -/
theorem pay_eq (x0 x1 x2 : Vec Ideal S8x32x2048 .f32) :
    k0_pay1 (F := Ideal) x0 x1 x2 = output (weights (scores (relay x0) (relay x1))) (relay x2) := rfl

end Cert.AxialAttn.Ker

end
-- ==== Proof.AttnSpec.lean ====
/-
  Axial attention along the fourth axis of a [2, 8, 16, 32, 32, 64] array, as ONE function of the three argument arrays.

  Fix the coordinates (b, h, t) and the column w. The 32 positions l along the fourth axis attend to one another: the
  score of query position l against key position m is the inner product over the 64 channels, times a scale; each row
  of scores is turned into weights by a softmax (subtract the row's maximum, exponentiate, divide by the row's sum),
  and the result at (l, channel c) is the weighted sum over m of the values at (m, c). Everything is read on the
  extended reals, where the only facts used are those of the operations themselves: no distributivity, no
  cancellation, so nothing here needs the inputs to be finite.
-/
import Idealize.ShloMosaic.PureOps.Ideal
import Idealize.ShloMosaic.PureOps.Ideal.Laws
import Idealize.ShloMosaic.Lib.ValueIdx
import Idealize.ShloMosaic.Lib.ValueIdxRank6

noncomputable section

namespace Cert.AxialAttn

open Idealize.ShloMosaic Idealize.ShloMosaic.ValueIdx

/-- The shape of the three arguments and of the result. -/
abbrev A6 : Shape := ⟨6, ![2, 8, 16, 32, 32, 64]⟩

/-- The softmax weight of position `m` in a row of 32 scores `sc`: the row's maximum (taken from `ninf`, and once more
    against `ninf`) is subtracted before exponentiating, and the exponentials are divided by their sum. -/
def softRow (ninf : EReal) (sc : Fin 32 → EReal) (m : Fin 32) : EReal :=
  Ideal.div (Ideal.exp (sc m - max ninf (Finset.univ.fold max ninf sc)))
    (∑ m' : Fin 32, Ideal.exp (sc m' - max ninf (Finset.univ.fold max ninf sc)))

/-- One output entry: the inner products `d m` of the query row with the 32 key rows, scaled by `s`, made into softmax
    weights, and the weighted sum of the 32 value entries `vv m`. -/
def attnRow (s ninf : EReal) (d : Fin 32 → EReal) (vv : Fin 32 → EReal) : EReal :=
  ∑ m : Fin 32, softRow ninf (fun m' => d m' * s) m * vv m

/-- The result at coordinates (b, h, t, l, w, c): query row (b, h, t, l, w, ·) against the key rows (b, h, t, m, w, ·),
    values (b, h, t, m, w, c). The scale is the f32 word of 1/8 and the maximum starts from the f32 word of -∞; both
    are kept as words. -/
def Gc (q k v : A6.Idx → EReal) (b : Fin 2) (h : Fin 8) (t : Fin 16) (l : Fin 32) (w : Fin 32) (c : Fin 64) : EReal :=
  attnRow (Ideal.ofBits .f32 0x3E000000#32) (Ideal.ofBits .f32 0xFF800000#32)
    (fun m => ∑ c' : Fin 64, q (ix6 b h t l w c') * k (ix6 b h t m w c'))
    (fun m => v (ix6 b h t m w c))

/-- The whole result array. -/
def G (q k v : A6.Idx → EReal) : A6.Idx → EReal := fun i => Gc q k v (i 0) (i 1) (i 2) (i 3) (i 4) (i 5)

theorem G_ix6 (q k v : A6.Idx → EReal) (b : Fin 2) (h : Fin 8) (t : Fin 16) (l : Fin 32) (w : Fin 32) (c : Fin 64) :
    G q k v (ix6 b h t l w c) = Gc q k v b h t l w c := rfl

/-- The reference's scale, one over the square root of 64, is the kernel's literal 1/8: the f32 words of 64, 1 and
    1/8 are those numbers exactly, the square root of 64 is 8, and the quotient of two reals is the real quotient. -/
theorem scale_eq :
    Ideal.div (Ideal.ofBits .f32 0x3F800000#32) (Ideal.sqrt (Ideal.ofBits .f32 0x42800000#32))
      = Ideal.ofBits .f32 0x3E000000#32 := by
  have h64 : Ideal.ofBits .f32 0x42800000#32 = ((64 : ℝ) : EReal) := by
    simp [Ideal.ofBits, Ideal.ieee, -EReal.coe_mul]; norm_num
  have h1 : Ideal.ofBits .f32 0x3F800000#32 = ((1 : ℝ) : EReal) := by
    simp [Ideal.ofBits, Ideal.ieee, -EReal.coe_mul]; norm_num
  have h8 : Ideal.ofBits .f32 0x3E000000#32 = (((1 / 8 : ℝ)) : EReal) := by
    simp [Ideal.ofBits, Ideal.ieee, -EReal.coe_mul]; norm_num
  have hs : Real.sqrt 64 = 8 := by
    rw [show (64 : ℝ) = 8 ^ 2 by norm_num]; exact Real.sqrt_sq (by norm_num)
  rw [h64, h1, h8, Ideal.sqrt_coe, if_neg (by norm_num), hs, Ideal.div_coe (by norm_num : (8 : ℝ) ≠ 0), ← EReal.coe_mul]
  norm_num

end Cert.AxialAttn

end
-- ==== Proof.KerRead.lean ====
/-
  The kernel body's stages, read at one entry.

  Batch row B = bb·32 + w of the re-laid arrays is column w of slab bb; lane w·64 + c of the block's last axis is
  channel c of column w. Re-laying moves entry (bb, l, w·64 + c) of a block to (bb·32 + w, l, c) and back. The scores at
  (B, l, m) are the inner product over 64 channels times the word of 1/8; the softmax weights at (B, l, m) are `softRow`
  of score row (B, l); the output at (bb, l, w·64 + c) is the weighted sum over m of the values at (B, m, c).
-/
import proofs.«107295_j42975442764618_2_alg».proof.Proof.KerStages
import proofs.«107295_j42975442764618_2_alg».proof.Proof.AttnSpec
import Idealize.ShloMosaic.Lib.Pipeline.Value
import Idealize.ShloMosaic.Lib.ValueIdx
import Idealize.ShloMosaic.PureOps.Ideal.Laws

noncomputable section

namespace Cert.AxialAttn.Ker

open Cert.KernelIdeal Cert.KernelIdeal.Gen
open Idealize.ShloMosaic Idealize.ShloMosaic.ValueIdx

/-- The batch row of column `w` of slab `bb`. -/
def brow (bb : Fin 8) (w : Fin 32) : Fin 256 :=
  ⟨bb.val * 32 + w.val, by have := bb.isLt; have := w.isLt; omega⟩
/-- The lane of channel `c` of column `w`. -/
def lane (w : Fin 32) (c : Fin 64) : Fin 2048 :=
  ⟨w.val * 64 + c.val, by have := w.isLt; have := c.isLt; omega⟩

theorem brow_val (bb : Fin 8) (w : Fin 32) : (brow bb w).val = bb.val * 32 + w.val := rfl
theorem lane_val (w : Fin 32) (c : Fin 64) : (lane w c).val = w.val * 64 + c.val := rfl

/-- Positions: (bb, w, l, c) of [8, 32, 32, 64] and (B, l, c) of [256, 32, 64] are one row-major position. -/
theorem pos_batch (bb : Fin 8) (w l : Fin 32) (c : Fin 64) :
    (S8x32x32x64.rowMajor (ix4 bb w l c)).val = (S256x32x64.rowMajor (ix3 (brow bb w) l c)).val := by
  rw [Shape.rowMajor_val_four, Shape.rowMajor_val_three]
  show ((bb.val * 32 + w.val) * 32 + l.val) * 64 + c.val = ((brow bb w).val * 32 + l.val) * 64 + c.val
  rw [brow_val]

/-- Positions: (bb, l, w, c) of [8, 32, 32, 64] and (bb, l, w·64 + c) of [8, 32, 2048] are one row-major position. -/
theorem pos_lane (bb : Fin 8) (l w : Fin 32) (c : Fin 64) :
    (S8x32x32x64.rowMajor (ix4 bb l w c)).val = (S8x32x2048.rowMajor (ix3 bb l (lane w c))).val := by
  rw [Shape.rowMajor_val_four, Shape.rowMajor_val_three]
  show ((bb.val * 32 + l.val) * 32 + w.val) * 64 + c.val = (bb.val * 32 + l.val) * 2048 + (lane w c).val
  rw [lane_val]
  omega

/-- Re-laying: batch row B, position l, channel c is the block's entry (bb, l, w·64 + c). -/
theorem relay_apply (x : Vec Ideal S8x32x2048 .f32) (bb : Fin 8) (w l : Fin 32) (c : Fin 64) :
    relay x (ix3 (brow bb w) l c) = x (ix3 bb l (lane w c)) := by
  unfold relay
  refine (shapeCast_apply _ _ (ix3 (brow bb w) l c) (ix4 bb w l c) (pos_batch bb w l c)).trans ?_
  refine (transpose_apply _ _ _ (ix4 bb w l c) (ix4 bb l w c) (fun a => match a with
    | ⟨0, _⟩ => rfl | ⟨1, _⟩ => rfl | ⟨2, _⟩ => rfl | ⟨3, _⟩ => rfl)).trans ?_
  refine (shapeCast_apply _ _ (ix4 bb l w c) (ix3 bb l (lane w c)) (pos_lane bb l w c).symm).trans ?_
  rw [truncf_apply, shapeCast_self]

/-! ### The two products -/

/-- The scores' product contracts the channel axis of both operands, batch on the first axis. -/
abbrev Dqk : DotDims S256x32x64 S256x32x64 S256x32x32 := dot_S256x32x64_S256x32x64_S256x32x32_2_2_1_1_0_0
/-- The output's product contracts the weights' last axis with the values' position axis, batch on the first axis. -/
abbrev Dpv : DotDims S256x32x32 S256x32x64 S256x32x64 := dot_S256x32x32_S256x32x64_S256x32x64_2_1_1_2_0_0

theorem qk_lhs_0 (i : S256x32x32.Idx) (q : Dqk.contr.Idx) : (Dqk.lhsIdx i q 0).val = (i 0).val := by
  unfold DotDims.lhsIdx
  rw [dif_pos (show (0 : Fin S256x32x64.rank) ∈ Dqk.lhsBatch by decide)]
  rfl
theorem qk_lhs_1 (i : S256x32x32.Idx) (q : Dqk.contr.Idx) : (Dqk.lhsIdx i q 1).val = (i 1).val := by
  unfold DotDims.lhsIdx
  rw [dif_neg (show ¬(1 : Fin S256x32x64.rank) ∈ Dqk.lhsBatch by decide),
    dif_pos (show (1 : Fin S256x32x64.rank) ∈ Dqk.lhsNonContracting by decide)]
  rfl
theorem qk_lhs_2 (i : S256x32x32.Idx) (q : Dqk.contr.Idx) : (Dqk.lhsIdx i q 2).val = (q ⟨0, by decide⟩).val :=
  Dqk.lhsIdx_val_of_single rfl i q
theorem qk_rhs_0 (i : S256x32x32.Idx) (q : Dqk.contr.Idx) : (Dqk.rhsIdx i q 0).val = (i 0).val := by
  unfold DotDims.rhsIdx
  rw [dif_pos (show (0 : Fin S256x32x64.rank) ∈ Dqk.rhsBatch by decide)]
  rfl
theorem qk_rhs_1 (i : S256x32x32.Idx) (q : Dqk.contr.Idx) : (Dqk.rhsIdx i q 1).val = (i 2).val := by
  unfold DotDims.rhsIdx
  rw [dif_neg (show ¬(1 : Fin S256x32x64.rank) ∈ Dqk.rhsBatch by decide),
    dif_pos (show (1 : Fin S256x32x64.rank) ∈ Dqk.rhsNonContracting by decide)]
  rfl
theorem qk_rhs_2 (i : S256x32x32.Idx) (q : Dqk.contr.Idx) : (Dqk.rhsIdx i q 2).val = (q ⟨0, by decide⟩).val :=
  Dqk.rhsIdx_val_of_single rfl i q

theorem qk_lhs (B : Fin 256) (l m : Fin 32) (k : Fin 64) :
    Dqk.lhsIdx (ix3 B l m) ((contrEquiv1 Dqk 64 rfl rfl).symm k) = ix3 B l k := by
  have hk := contrEquiv1_symm_val Dqk 64 rfl rfl k
  exact funext fun a => Fin.ext (by
    match a with
    | ⟨0, _⟩ => exact qk_lhs_0 _ _
    | ⟨1, _⟩ => exact qk_lhs_1 _ _
    | ⟨2, _⟩ => exact (qk_lhs_2 _ _).trans hk)

theorem qk_rhs (B : Fin 256) (l m : Fin 32) (k : Fin 64) :
    Dqk.rhsIdx (ix3 B l m) ((contrEquiv1 Dqk 64 rfl rfl).symm k) = ix3 B m k := by
  have hk := contrEquiv1_symm_val Dqk 64 rfl rfl k
  exact funext fun a => Fin.ext (by
    match a with
    | ⟨0, _⟩ => exact qk_rhs_0 _ _
    | ⟨1, _⟩ => exact qk_rhs_1 _ _
    | ⟨2, _⟩ => exact (qk_rhs_2 _ _).trans hk)

theorem pv_lhs_0 (i : S256x32x64.Idx) (q : Dpv.contr.Idx) : (Dpv.lhsIdx i q 0).val = (i 0).val := by
  unfold DotDims.lhsIdx
  rw [dif_pos (show (0 : Fin S256x32x32.rank) ∈ Dpv.lhsBatch by decide)]
  rfl
theorem pv_lhs_1 (i : S256x32x64.Idx) (q : Dpv.contr.Idx) : (Dpv.lhsIdx i q 1).val = (i 1).val := by
  unfold DotDims.lhsIdx
  rw [dif_neg (show ¬(1 : Fin S256x32x32.rank) ∈ Dpv.lhsBatch by decide),
    dif_pos (show (1 : Fin S256x32x32.rank) ∈ Dpv.lhsNonContracting by decide)]
  rfl
theorem pv_lhs_2 (i : S256x32x64.Idx) (q : Dpv.contr.Idx) : (Dpv.lhsIdx i q 2).val = (q ⟨0, by decide⟩).val :=
  Dpv.lhsIdx_val_of_single rfl i q
theorem pv_rhs_0 (i : S256x32x64.Idx) (q : Dpv.contr.Idx) : (Dpv.rhsIdx i q 0).val = (i 0).val := by
  unfold DotDims.rhsIdx
  rw [dif_pos (show (0 : Fin S256x32x64.rank) ∈ Dpv.rhsBatch by decide)]
  rfl
theorem pv_rhs_1 (i : S256x32x64.Idx) (q : Dpv.contr.Idx) : (Dpv.rhsIdx i q 1).val = (q ⟨0, by decide⟩).val :=
  Dpv.rhsIdx_val_of_single rfl i q
theorem pv_rhs_2 (i : S256x32x64.Idx) (q : Dpv.contr.Idx) : (Dpv.rhsIdx i q 2).val = (i 2).val := by
  unfold DotDims.rhsIdx
  rw [dif_neg (show ¬(2 : Fin S256x32x64.rank) ∈ Dpv.rhsBatch by decide),
    dif_pos (show (2 : Fin S256x32x64.rank) ∈ Dpv.rhsNonContracting by decide)]
  rfl

theorem pv_lhs (B : Fin 256) (l : Fin 32) (c : Fin 64) (k : Fin 32) :
    Dpv.lhsIdx (ix3 B l c) ((contrEquiv1 Dpv 32 rfl rfl).symm k) = ix3 B l k := by
  have hk := contrEquiv1_symm_val Dpv 32 rfl rfl k
  exact funext fun a => Fin.ext (by
    match a with
    | ⟨0, _⟩ => exact pv_lhs_0 _ _
    | ⟨1, _⟩ => exact pv_lhs_1 _ _
    | ⟨2, _⟩ => exact (pv_lhs_2 _ _).trans hk)

theorem pv_rhs (B : Fin 256) (l : Fin 32) (c : Fin 64) (k : Fin 32) :
    Dpv.rhsIdx (ix3 B l c) ((contrEquiv1 Dpv 32 rfl rfl).symm k) = ix3 B k c := by
  have hk := contrEquiv1_symm_val Dpv 32 rfl rfl k
  exact funext fun a => Fin.ext (by
    match a with
    | ⟨0, _⟩ => exact pv_rhs_0 _ _
    | ⟨1, _⟩ => exact (pv_rhs_1 _ _).trans hk
    | ⟨2, _⟩ => exact pv_rhs_2 _ _)

/-- The scaled scores at (B, l, m). -/
theorem scores_apply (a b : FVec Ideal S256x32x64 .bf16) (B : Fin 256) (l m : Fin 32) :
    scores a b (ix3 B l m)
      = (∑ c' : Fin 64, a (ix3 B l c') * b (ix3 B m c')) * Ideal.ofBits .f32 0x3E000000#32 := by
  unfold scores
  rw [mulf_apply, broadcast_apply]
  refine congrArg₂ (· * ·) ?_ rfl
  refine (Ideal.matmul_constant_zero_apply Dqk none a b (ix3 B l m)).trans ?_
  rw [← Equiv.sum_comp (contrEquiv1 Dqk 64 rfl rfl).symm]
  refine Finset.sum_congr rfl fun k _ => ?_
  rw [qk_lhs, qk_rhs]

/-! ### The softmax -/

/-- Inserting `m'` on the last axis of (B, l) gives (B, l, m'). -/
theorem lift_last (B : Fin 256) (l m' : Fin 32) : reduces_S256x32x32_S256x32.lift (ix2 B l) m' = ix3 B l m' :=
  funext fun a => Fin.ext (by match a with | ⟨0, _⟩ => rfl | ⟨1, _⟩ => rfl | ⟨2, _⟩ => rfl)

/-- A per-row value, given a trailing unit axis and spread along the row, read at (B, l, m) is the row's value. -/
theorem spread_apply (y : FVec Ideal S256x32 .f32) (B : Fin 256) (l m : Fin 32) :
    broadcastTo S256x32x32 (shapeCast S256x32x1 y shapeCasts_S256x32_S256x32x1) broadcasts_S256x32x1_S256x32x32 (ix3 B l m)
      = y (ix2 B l) := by
  refine (broadcastTo_apply _ _ (ix3 B l m) (ix3 B l (0 : Fin 1)) (fun a => match a with
    | ⟨0, _⟩ => by show B.val = if (256 : Nat) = 1 then 0 else B.val; rw [if_neg (by decide)]
    | ⟨1, _⟩ => by show l.val = if (32 : Nat) = 1 then 0 else l.val; rw [if_neg (by decide)]
    | ⟨2, _⟩ => by show 0 = if (1 : Nat) = 1 then 0 else m.val; rw [if_pos rfl])).trans ?_
  refine shapeCast_apply _ _ (ix3 B l (0 : Fin 1)) (ix2 B l) ?_
  rw [Shape.rowMajor_val_two, Shape.rowMajor_val_three]
  show B.val * 32 + l.val = (B.val * 32 + l.val) * 1 + 0
  omega

/-- The shifted row maximum. -/
theorem rowmax_apply (sc : FVec Ideal S256x32x32 .f32) (B : Fin 256) (l : Fin 32) :
    rowmax sc (ix2 B l)
      = max (Ideal.ofBits .f32 0xFF800000#32)
          ((Finset.univ : Finset (Fin 32)).fold max (Ideal.ofBits .f32 0xFF800000#32) (fun m' => sc (ix3 B l m'))) := by
  unfold rowmax
  rw [maximumf_apply, broadcast_apply]
  refine congrArg₂ max rfl ?_
  refine (Ideal.multiReduction_maximumf_single sc 0xFF800000#32 reduces_S256x32x32_S256x32 (.inl rfl) rfl (ix2 B l)).trans ?_
  have hf : (sc ∘ reduces_S256x32x32_S256x32.lift (ix2 B l)) = fun m' : Fin 32 => sc (ix3 B l m') :=
    funext fun m' => congrArg sc (lift_last B l m')
  rw [hf]
  rfl

/-- The exponential of a score minus its row's shifted maximum. -/
theorem expo_apply (sc : FVec Ideal S256x32x32 .f32) (B : Fin 256) (l m : Fin 32) :
    expo sc (ix3 B l m)
      = Ideal.exp (sc (ix3 B l m)
          - max (Ideal.ofBits .f32 0xFF800000#32)
              ((Finset.univ : Finset (Fin 32)).fold max (Ideal.ofBits .f32 0xFF800000#32) (fun m' => sc (ix3 B l m')))) := by
  unfold expo
  show Ideal.exp (sc (ix3 B l m) - broadcastTo S256x32x32 (shapeCast S256x32x1 (rowmax sc) shapeCasts_S256x32_S256x32x1)
    broadcasts_S256x32x1_S256x32x32 (ix3 B l m)) = _
  rw [spread_apply, rowmax_apply]

/-- The softmax weight at (B, l, m). -/
theorem weights_apply (sc : FVec Ideal S256x32x32 .f32) (B : Fin 256) (l m : Fin 32) :
    weights sc (ix3 B l m) = softRow (Ideal.ofBits .f32 0xFF800000#32) (fun m' => sc (ix3 B l m')) m := by
  unfold weights
  show Ideal.div (expo sc (ix3 B l m)) (broadcastTo S256x32x32 (shapeCast S256x32x1
    (multiReduction .add [2] S256x32 (expo sc) 0x00000000#32 reduces_S256x32x32_S256x32 (.inl rfl) rfl)
    shapeCasts_S256x32_S256x32x1) broadcasts_S256x32x1_S256x32x32 (ix3 B l m)) = _
  rw [spread_apply]
  unfold softRow
  refine congrArg₂ Ideal.div (expo_apply sc B l m) ?_
  refine (Ideal.multiReduction_add_single (expo sc) 0x00000000#32 reduces_S256x32x32_S256x32 (.inl rfl) rfl (ix2 B l)).trans ?_
  show ∑ m' : Fin 32, expo sc (reduces_S256x32x32_S256x32.lift (ix2 B l) m') = _
  refine Finset.sum_congr rfl fun m' _ => ?_
  rw [lift_last, expo_apply]

/-! ### The output -/

/-- The output at (bb, l, w·64 + c): the weighted sum over the 32 positions of batch row B. -/
theorem output_apply (p : FVec Ideal S256x32x32 .f32) (vv : FVec Ideal S256x32x64 .bf16)
    (bb : Fin 8) (l w : Fin 32) (c : Fin 64) :
    output p vv (ix3 bb l (lane w c)) = ∑ m : Fin 32, p (ix3 (brow bb w) l m) * vv (ix3 (brow bb w) m c) := by
  unfold output
  refine (shapeCast_apply _ _ (ix3 bb l (lane w c)) (ix4 bb l w c) (pos_lane bb l w c)).trans ?_
  refine (transpose_apply _ _ _ (ix4 bb l w c) (ix4 bb w l c) (fun a => match a with
    | ⟨0, _⟩ => rfl | ⟨1, _⟩ => rfl | ⟨2, _⟩ => rfl | ⟨3, _⟩ => rfl)).trans ?_
  refine (shapeCast_apply _ _ (ix4 bb w l c) (ix3 (brow bb w) l c) (pos_batch bb w l c).symm).trans ?_
  refine (Ideal.matmul_constant_zero_apply Dpv none _ vv (ix3 (brow bb w) l c)).trans ?_
  rw [← Equiv.sum_comp (contrEquiv1 Dpv 32 rfl rfl).symm]
  refine Finset.sum_congr rfl fun k _ => ?_
  rw [pv_lhs, pv_rhs, truncf_apply]

/-- The body's stored value at (bb, l, w·64 + c): one row of attention over the three blocks. -/
theorem pay_apply (x0 x1 x2 : Vec Ideal S8x32x2048 .f32) (bb : Fin 8) (l w : Fin 32) (c : Fin 64) :
    k0_pay1 (F := Ideal) x0 x1 x2 (ix3 bb l (lane w c))
      = attnRow (Ideal.ofBits .f32 0x3E000000#32) (Ideal.ofBits .f32 0xFF800000#32)
          (fun m => ∑ c' : Fin 64, x0 (ix3 bb l (lane w c')) * x1 (ix3 bb m (lane w c')))
          (fun m => x2 (ix3 bb m (lane w c))) := by
  rw [pay_eq, output_apply]
  unfold attnRow
  refine Finset.sum_congr rfl fun m _ => ?_
  rw [weights_apply, relay_apply]
  refine congrArg₂ (· * ·) (congrArg (fun f => softRow _ f m) (funext fun m' => ?_)) rfl
  rw [scores_apply]
  refine congrArg₂ (· * ·) (Finset.sum_congr rfl fun c' _ => ?_) rfl
  rw [relay_apply, relay_apply]

end Cert.AxialAttn.Ker

end
-- ==== Proof.KerBlocks.lean ====
/-
  From the grid's blocks to the whole [256, 32, 2048] output array.

  Grid point t works on rows 8t … 8t+7 of the first axis of the three folded inputs and writes the same rows of the
  output; every row of the first axis is handled independently. So what a point writes back is the restriction to its
  rows of ONE function `G3` of the three whole folded arrays: at (B, l, w·64 + c), the row of attention over positions of
  row B, column w. The 32 blocks tile the array (row B lies in block B / 8), so the array after the run is `G3`.
-/
import proofs.«107295_j42975442764618_2_alg».proof.Proof.Gen.KernelIdeal.Frame
import proofs.«107295_j42975442764618_2_alg».proof.Proof.KerRead
import Idealize.ShloMosaic.Lib.Pipeline.Value

set_option maxRecDepth 16384

noncomputable section

namespace Cert.AxialAttn.Ker

open Cert.KernelIdeal Cert.KernelIdeal.Gen
open Idealize.ShloMosaic Idealize.ShloMosaic.TcCoe Idealize.SL.Sem Idealize.ShloMosaic.ValueIdx
open Idealize.ShloMosaic.Pipeline (Dat)

/-- The output at row B, position l, column w, channel c, from the three folded arrays. -/
def G3c (a0 a1 a2 : S256x32x2048.Idx → EReal) (B : Fin 256) (l w : Fin 32) (c : Fin 64) : EReal :=
  attnRow (Ideal.ofBits .f32 0x3E000000#32) (Ideal.ofBits .f32 0xFF800000#32)
    (fun m => ∑ c' : Fin 64, a0 (ix3 B l (lane w c')) * a1 (ix3 B m (lane w c')))
    (fun m => a2 (ix3 B m (lane w c)))

/-- The whole folded output: lane j is channel j mod 64 of column j / 64. -/
def G3 (a0 a1 a2 : S256x32x2048.Idx → EReal) : S256x32x2048.Idx → EReal := fun i =>
  G3c a0 a1 a2 (i 0) (i 1) ⟨(i 2).val / 64, by have h : (i 2).val < 2048 := (i 2).isLt; omega⟩
    ⟨(i 2).val % 64, Nat.mod_lt _ (by decide)⟩

theorem G3_apply (a0 a1 a2 : S256x32x2048.Idx → EReal) (B : Fin 256) (l w : Fin 32) (c : Fin 64) :
    G3 a0 a1 a2 (ix3 B l (lane w c)) = G3c a0 a1 a2 B l w c := by
  have hw : (⟨(lane w c).val / 64, by have h := (lane w c).isLt; omega⟩ : Fin 32) = w :=
    Fin.ext (by show (lane w c).val / 64 = w.val; rw [lane_val]; have := c.isLt; omega)
  have hc : (⟨(lane w c).val % 64, Nat.mod_lt _ (by decide)⟩ : Fin 64) = c :=
    Fin.ext (by show (lane w c).val % 64 = c.val; rw [lane_val]; have := c.isLt; omega)
  show G3c a0 a1 a2 B l ⟨(lane w c).val / 64, _⟩ ⟨(lane w c).val % 64, _⟩ = _
  rw [hw, hc]

/-- Every lane is channel c of column w for some (w, c). -/
theorem exists_lane (j : Fin 2048) : ∃ (w : Fin 32) (c : Fin 64), j = lane w c :=
  ⟨⟨j.val / 64, by have := j.isLt; omega⟩, ⟨j.val % 64, Nat.mod_lt _ (by decide)⟩,
    Fin.ext (by show j.val = j.val / 64 * 64 + j.val % 64; omega)⟩

/-- A block's stored value is `G3` of any three arrays of which the loaded blocks are rows T·8 … T·8+7. -/
theorem block_eq (a0 a1 a2 : S256x32x2048.Idx → EReal) (x0 x1 x2 : Vec Ideal S8x32x2048 .f32) (T : Nat)
    (h0 : ∀ (y : S8x32x2048.Idx) (i : S256x32x2048.Idx),
      (i 0).val = T * 8 + (y 0).val → (i 1).val = (y 1).val → (i 2).val = (y 2).val → x0 y = a0 i)
    (h1 : ∀ (y : S8x32x2048.Idx) (i : S256x32x2048.Idx),
      (i 0).val = T * 8 + (y 0).val → (i 1).val = (y 1).val → (i 2).val = (y 2).val → x1 y = a1 i)
    (h2 : ∀ (y : S8x32x2048.Idx) (i : S256x32x2048.Idx),
      (i 0).val = T * 8 + (y 0).val → (i 1).val = (y 1).val → (i 2).val = (y 2).val → x2 y = a2 i)
    (y : S8x32x2048.Idx) (i : S256x32x2048.Idx)
    (e0 : (i 0).val = T * 8 + (y 0).val) (e1 : (i 1).val = (y 1).val) (e2 : (i 2).val = (y 2).val) :
    k0_pay1 (F := Ideal) x0 x1 x2 y = G3 a0 a1 a2 i := by
  obtain ⟨bb, l, j, rfl⟩ : ∃ (bb : Fin 8) (l : Fin 32) (j : Fin 2048), y = ix3 bb l j := ⟨y 0, y 1, y 2, eq_ix3 y⟩
  obtain ⟨w, c, rfl⟩ := exists_lane j
  obtain ⟨B, l', j', rfl⟩ : ∃ (B : Fin 256) (l' : Fin 32) (j' : Fin 2048), i = ix3 B l' j' := ⟨i 0, i 1, i 2, eq_ix3 i⟩
  obtain rfl : l' = l := Fin.ext e1
  obtain rfl : j' = lane w c := Fin.ext e2
  have eB : B.val = T * 8 + bb.val := e0
  rw [pay_apply, G3_apply]
  unfold G3c
  refine congrArg₂ (attnRow _ _) (funext fun mm => Finset.sum_congr rfl fun c' _ => ?_) (funext fun mm => ?_)
  · rw [h0 (ix3 bb l' (lane w c')) (ix3 B l' (lane w c')) eB rfl rfl,
      h1 (ix3 bb mm (lane w c')) (ix3 B mm (lane w c')) eB rfl rfl]
  · exact h2 (ix3 bb mm (lane w c)) (ix3 B mm (lane w c)) eB rfl rfl

/-! ### The blocks of the four windows -/

variable (m : (ℓ : Loc nD τ sig) → Buf (Elt Ideal) ℓ)

theorem hz : (![0, 0, 0] : Fin 3 → Nat) = fun _ => 0 := funext fun a => by fin_cases a <;> rfl

/-- The printed index maps, decided over the 32 points: all four windows are at block t of the first axis and block 0
    of the other two. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- The queries' block at point t is rows 8t … 8t+7 of the folded queries. -/
theorem blk0_read (c : Dev nD) (t : Fin cfg0.N) (y : S8x32x2048.Idx) (i : S256x32x2048.Idx)
    (e0 : (i 0).val = t.val * 8 + (y 0).val) (e1 : (i 1).val = (y 1).val) (e2 : (i 2).val = (y 2).val) :
    iblk m c 0 t y = V m c main_v0 i := by
  obtain ⟨f0, f1, f2, -⟩ := idx_facts t
  show V m c main_v0 (((cfg0.win 0).blk t).view.emb y) = V m c main_v0 i
  refine congrArg _ (funext fun a => Fin.ext ?_)
  match a with
  | ⟨0, _⟩ => show win0_0.index t (0 : Fin 3) * 8 + 1 * (y 0).val = (i 0).val; omega
  | ⟨1, _⟩ => show win0_0.index t (1 : Fin 3) * 32 + 1 * (y 1).val = (i 1).val; omega
  | ⟨2, _⟩ => show win0_0.index t (2 : Fin 3) * 2048 + 1 * (y 2).val = (i 2).val; omega

/-- The keys' block likewise. -/
theorem blk1_read (c : Dev nD) (t : Fin cfg0.N) (y : S8x32x2048.Idx) (i : S256x32x2048.Idx)
    (e0 : (i 0).val = t.val * 8 + (y 0).val) (e1 : (i 1).val = (y 1).val) (e2 : (i 2).val = (y 2).val) :
    iblk m c 1 t y = V m c main_v1 i := by
  obtain ⟨-, -, -, f0, f1, f2, -⟩ := idx_facts t
  show V m c main_v1 (((cfg0.win 1).blk t).view.emb y) = V m c main_v1 i
  refine congrArg _ (funext fun a => Fin.ext ?_)
  match a with
  | ⟨0, _⟩ => show win0_1.index t (0 : Fin 3) * 8 + 1 * (y 0).val = (i 0).val; omega
  | ⟨1, _⟩ => show win0_1.index t (1 : Fin 3) * 32 + 1 * (y 1).val = (i 1).val; omega
  | ⟨2, _⟩ => show win0_1.index t (2 : Fin 3) * 2048 + 1 * (y 2).val = (i 2).val; omega

/-- The values' block likewise. -/
theorem blk2_read (c : Dev nD) (t : Fin cfg0.N) (y : S8x32x2048.Idx) (i : S256x32x2048.Idx)
    (e0 : (i 0).val = t.val * 8 + (y 0).val) (e1 : (i 1).val = (y 1).val) (e2 : (i 2).val = (y 2).val) :
    iblk m c 2 t y = V m c main_v2 i := by
  obtain ⟨-, -, -, -, -, -, f0, f1, f2, -⟩ := idx_facts t
  show V m c main_v2 (((cfg0.win 2).blk t).view.emb y) = V m c main_v2 i
  refine congrArg _ (funext fun a => Fin.ext ?_)
  match a with
  | ⟨0, _⟩ => show win0_2.index t (0 : Fin 3) * 8 + 1 * (y 0).val = (i 0).val; omega
  | ⟨1, _⟩ => show win0_2.index t (1 : Fin 3) * 32 + 1 * (y 1).val = (i 1).val; omega
  | ⟨2, _⟩ => show win0_2.index t (2 : Fin 3) * 2048 + 1 * (y 2).val = (i 2).val; omega

/-- What point t writes back is block t of `G3` of the three folded arrays as the region finds them. -/
theorem flushed_eq (c : Dev nD) (t : Fin cfg0.N) :
    (dats m 0 c).flushed 3 t
      = ((cfg0.win 3).blk t).view.read (Elt Ideal) (G3 (V m c main_v0) (V m c main_v1) (V m c main_v2)) := by
  show (cfg0.win 3).cut (grid0.coords t) ((dats m 0 c).after 3 t) = _
  rw [after0_3]
  unfold out0_3
  rw [View.canon_unit_zero hz]
  simp only [View.ld_unit_zero (S := S8x32x2048) hz]
  obtain ⟨-, -, -, -, -, -, -, -, -, f0, f1, f2⟩ := idx_facts t
  funext y
  show k0_pay1 (F := Ideal) (iblk m c 0 t) (iblk m c 1 t) (iblk m c 2 t) y
    = G3 (V m c main_v0) (V m c main_v1) (V m c main_v2) (((cfg0.win 3).blk t).view.emb y)
  refine block_eq _ _ _ _ _ _ t.val (fun y i => blk0_read m c t y i) (fun y i => blk1_read m c t y i)
    (fun y i => blk2_read m c t y i) y _ ?_ ?_ ?_
  · show win0_3.index t (0 : Fin 3) * 8 + 1 * (y 0).val = t.val * 8 + (y 0).val; omega
  · show win0_3.index t (1 : Fin 3) * 32 + 1 * (y 1).val = (y 1).val; omega
  · show win0_3.index t (2 : Fin 3) * 2048 + 1 * (y 2).val = (y 2).val; omega

/-- An index of the output array is in point t's block iff each coordinate is in the block's range. -/
theorem mem_blk (t : Fin cfg0.N) (i : S256x32x2048.Idx) :
    i ∈ ((cfg0.win 3).blk t).view.set ↔ ∀ a : Fin 3, win0_3.index t a * S8x32x2048.size a ≤ (i a).val
      ∧ (i a).val < win0_3.index t a * S8x32x2048.size a + S8x32x2048.size a := by
  show i ∈ ((View.whole main_v3).slice (win0_3.rect t)).set ↔ _
  rw [View.set_slice_whole, Rect.mem_set_unit]
  exact Iff.rfl

/-- Row B of the first axis lies in block B / 8: the blocks cover the array. -/
theorem cover (i : S256x32x2048.Idx) :
    ∃ t : Fin cfg0.N, (cfg0.win 3).flush t = true ∧ i ∈ ((cfg0.win 3).blk t).view.set := by
  have hi0 : (i 0).val < 256 := (i 0).isLt
  have hi1 : (i 1).val < 32 := (i 1).isLt
  have hi2 : (i 2).val < 2048 := (i 2).isLt
  have hN : cfg0.N = 32 := N_0
  have hlt : (i 0).val / 8 < cfg0.N := by rw [hN]; omega
  refine ⟨⟨(i 0).val / 8, hlt⟩, flush0_3 _, ?_⟩
  rw [mem_blk]
  obtain ⟨-, -, -, -, -, -, -, -, -, f0, f1, f2⟩ := idx_facts ⟨(i 0).val / 8, hlt⟩
  have f0' : win0_3.index ⟨(i 0).val / 8, hlt⟩ (0 : Fin 3) = (i 0).val / 8 := f0
  intro a
  match a with
  | ⟨0, _⟩ =>
    show win0_3.index ⟨(i 0).val / 8, hlt⟩ (0 : Fin 3) * 8 ≤ (i 0).val
      ∧ (i 0).val < win0_3.index ⟨(i 0).val / 8, hlt⟩ (0 : Fin 3) * 8 + 8
    omega
  | ⟨1, _⟩ =>
    show win0_3.index ⟨(i 0).val / 8, hlt⟩ (1 : Fin 3) * 32 ≤ (i 1).val
      ∧ (i 1).val < win0_3.index ⟨(i 0).val / 8, hlt⟩ (1 : Fin 3) * 32 + 32
    omega
  | ⟨2, _⟩ =>
    show win0_3.index ⟨(i 0).val / 8, hlt⟩ (2 : Fin 3) * 2048 ≤ (i 2).val
      ∧ (i 2).val < win0_3.index ⟨(i 0).val / 8, hlt⟩ (2 : Fin 3) * 2048 + 2048
    omega

/-- The folded output array after the run. -/
theorem final (c : Dev nD) :
    (dats m 0 c).arrAt 3 cfg0.N = G3 (V m c main_v0) (V m c main_v1) (V m c main_v2) :=
  (dats m 0 c).arrAt_eq_of_cover 3 _ (fun t _ => flushed_eq m c t) cover

end Cert.AxialAttn.Ker

end
-- ==== Proof.KerValue.lean ====
/-
  The kernel computes `G`.

  Before the region each argument is folded to [256, 32, 2048]: entry (S, l, w·64 + c) with S = (b·8 + h)·16 + t is the
  argument's entry (b, h, t, l, w, c) (one row-major position). After the region the folded output is unfolded the same
  way. So the result at (b, h, t, l, w, c) is `G3` of the folded arguments at (S, l, w·64 + c), which is the row of
  attention that `G` names.
-/
import proofs.«107295_j42975442764618_2_alg».proof.Proof.KerBlocks
import Idealize.ShloMosaic.Lib.StableHlo.Run
import Idealize.ShloMosaic.Lib.ValueIdxRank6

set_option maxRecDepth 16384

noncomputable section

namespace Cert.AxialAttn.Ker

open Cert.KernelIdeal Cert.KernelIdeal.Gen
open Idealize.ShloMosaic Idealize.ShloMosaic.TcCoe Idealize.SL.Sem Idealize.ShloMosaic.ValueIdx
open Idealize.ShloMosaic.Pipeline (Dat)

/-- The row of the folded arrays that holds slab (b, h, t). -/
def slab (b : Fin 2) (h : Fin 8) (t : Fin 16) : Fin 256 :=
  ⟨(b.val * 8 + h.val) * 16 + t.val, by have := b.isLt; have := h.isLt; have := t.isLt; omega⟩

theorem slab_val (b : Fin 2) (h : Fin 8) (t : Fin 16) : (slab b h t).val = (b.val * 8 + h.val) * 16 + t.val := rfl

/-- Positions: (b, h, t, l, w, c) and (S, l, w·64 + c) are one row-major position. -/
theorem pos_fold (b : Fin 2) (h : Fin 8) (t : Fin 16) (l w : Fin 32) (c : Fin 64) :
    (S2x8x16x32x32x64.rowMajor (ix6 b h t l w c)).val = (S256x32x2048.rowMajor (ix3 (slab b h t) l (lane w c))).val := by
  rw [Shape.rowMajor_val_six, Shape.rowMajor_val_three]
  show ((((b.val * 8 + h.val) * 16 + t.val) * 32 + l.val) * 32 + w.val) * 64 + c.val = ((slab b h t).val * 32 + l.val) * 2048 + (lane w c).val
  rw [slab_val, lane_val]
  omega

/-- A folded argument at (S, l, w·64 + c) is the argument at (b, h, t, l, w, c). -/
theorem fold_apply (x : A6.Idx → EReal) (b : Fin 2) (h : Fin 8) (t : Fin 16) (l w : Fin 32) (c : Fin 64) :
    shapeCast S256x32x2048 x shapeCasts_S2x8x16x32x32x64_S256x32x2048 (ix3 (slab b h t) l (lane w c)) = x (ix6 b h t l w c) :=
  shapeCast_apply _ _ (ix3 (slab b h t) l (lane w c)) (ix6 b h t l w c) (pos_fold b h t l w c)

/-- Unfolding `G3` of the folded arguments gives `G` of the arguments. -/
theorem unfold_G3 (q k v : A6.Idx → EReal) :
    shapeCast S2x8x16x32x32x64
        (G3 (shapeCast S256x32x2048 q shapeCasts_S2x8x16x32x32x64_S256x32x2048)
          (shapeCast S256x32x2048 k shapeCasts_S2x8x16x32x32x64_S256x32x2048)
          (shapeCast S256x32x2048 v shapeCasts_S2x8x16x32x32x64_S256x32x2048))
        shapeCasts_S256x32x2048_S2x8x16x32x32x64
      = G q k v := by
  funext i
  obtain ⟨b, h, t, l, w, c, rfl⟩ : ∃ (b : Fin 2) (h : Fin 8) (t : Fin 16) (l : Fin 32) (w : Fin 32) (c : Fin 64),
      i = ix6 b h t l w c := ⟨i 0, i 1, i 2, i 3, i 4, i 5, eq_ix6 i⟩
  refine (shapeCast_apply _ _ (ix6 b h t l w c) (ix3 (slab b h t) l (lane w c)) (pos_fold b h t l w c).symm).trans ?_
  rw [G3_apply, G_ix6]
  unfold G3c Gc
  refine congrArg₂ (attnRow _ _) (funext fun mm => Finset.sum_congr rfl fun c' _ => ?_) (funext fun mm => ?_)
  · rw [fold_apply, fold_apply]
  · rw [fold_apply]

/-! ### The host operations around the region -/

variable (m : (ℓ : Loc nD τ sig) → Buf (Elt Ideal) ℓ) (ρ : Dev nD → PrngReg)

/-- The region finds the folded queries. -/
theorem V_v0 (c : Dev nD) :
    (V m c main_v0 : S256x32x2048.Idx → EReal)
      = shapeCast S256x32x2048 (m ((c : Thread nD τ).loc main_arg0)) shapeCasts_S2x8x16x32x32x64_S256x32x2048 := by
  show StableHlo.after hostOps0 (fun b => m (c, b)) (Proc.devRef .tc main_v0) = _
  after_results
  rfl

/-- The region finds the folded keys. -/
theorem V_v1 (c : Dev nD) :
    (V m c main_v1 : S256x32x2048.Idx → EReal)
      = shapeCast S256x32x2048 (m ((c : Thread nD τ).loc main_arg1)) shapeCasts_S2x8x16x32x32x64_S256x32x2048 := by
  show StableHlo.after hostOps0 (fun b => m (c, b)) (Proc.devRef .tc main_v1) = _
  after_results
  rfl

/-- The region finds the folded values. -/
theorem V_v2 (c : Dev nD) :
    (V m c main_v2 : S256x32x2048.Idx → EReal)
      = shapeCast S256x32x2048 (m ((c : Thread nD τ).loc main_arg2)) shapeCasts_S2x8x16x32x32x64_S256x32x2048 := by
  show StableHlo.after hostOps0 (fun b => m (c, b)) (Proc.devRef .tc main_v2) = _
  after_results
  rfl

/-- The operation after the region unfolds the output array the region leaves. -/
theorem tail_eq (c : Dev nD) :
    (Pipeline.afterTail₀ cfgs (dats m) 0 (V0 m) [hostOps1] c main_v4 : S2x8x16x32x32x64.Idx → EReal)
      = shapeCast S2x8x16x32x32x64 ((dats m 0 c).arrAt 3 cfg0.N) shapeCasts_S256x32x2048_S2x8x16x32x32x64 := by
  unfold Pipeline.afterTail₀
  show StableHlo.after hostOps1 _ (Proc.devRef .tc main_v4) = _
  after_results
  exact congrArg (fun a => shapeCast S2x8x16x32x32x64 a shapeCasts_S256x32x2048_S2x8x16x32x32x64)
    (Pipeline.withArrays_arr spec0 launch0.win.arr_inj c _ _ 3)

/-- The kernel's result array is `G` of the three arguments. -/
theorem result_eq (c : Dev nD) :
    (Pipeline.afterTail₀ cfgs (dats m) 0 (V0 m) [hostOps1] c main_v4 : S2x8x16x32x32x64.Idx → EReal)
      = G (m ((c : Thread nD τ).loc main_arg0)) (m ((c : Thread nD τ).loc main_arg1)) (m ((c : Thread nD τ).loc main_arg2)) := by
  rw [tail_eq, final, V_v0, V_v1, V_v2]
  exact unfold_G3 _ _ _

/-- Every weakly fair execution of the kernel's program terminates with the result array at `G` of the arguments and
    the arguments unchanged. -/
theorem run : θ_run defs (onTc (τ := τ) (main (F := Ideal))) ⟨m, fun _ => 0, ρ⟩ fun r => ∀ c : Dev nD,
      r.2.mem ((c : Thread nD τ).loc main_v4)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.AxialAttn.Ker

end
-- ==== Proof.RefRows.lean ====
/-
  The reference, read one row at a time.

  The reference swaps the fourth and fifth axes, folds (b, h, t, w) into one batch axis of 8192 rows, and works on
  arrays of shape [8192, 32, 64] (queries, keys, values) and [8192, 32, 32] (scores, weights). Batch row
  R = ((b·8 + h)·16 + t)·32 + w. Here: each folded input at (R, l, c) is the argument at (b, h, t, l, w, c); the scaled
  scores at (R, l, m) are the inner product of query row l and key row m times 1/√64 = 1/8; and the softmax weights at
  (R, l, m) are `softRow` of row (R, l) of the scores.
-/
import proofs.«107295_j42975442764618_2_alg».proof.Proof.Gen.ReferenceIdeal.Read
import proofs.«107295_j42975442764618_2_alg».proof.Proof.AttnSpec

noncomputable section

namespace Cert.AxialAttn.Ref

open Cert.ReferenceIdeal Cert.ReferenceIdeal.Gen Cert.ReferenceIdeal.Read
open Idealize.ShloMosaic Idealize.ShloMosaic.ValueIdx

/-- The batch row of the folded arrays that holds column `w` of the slab (b, h, t). -/
def row (b : Fin 2) (h : Fin 8) (t : Fin 16) (w : Fin 32) : Fin 8192 :=
  ⟨((b.val * 8 + h.val) * 16 + t.val) * 32 + w.val, by have := b.isLt; have := h.isLt; have := t.isLt; have := w.isLt; omega⟩

theorem row_val (b : Fin 2) (h : Fin 8) (t : Fin 16) (w : Fin 32) :
    (row b h t w).val = ((b.val * 8 + h.val) * 16 + t.val) * 32 + w.val := rfl

/-- The swapped array, folded: entry (R, l, c) is entry (b, h, t, w, l, c) of the swapped array (same row-major
    position), which is entry (b, h, t, l, w, c) of the argument. -/
theorem folded_apply (x : A6.Idx → EReal) (b : Fin 2) (h : Fin 8) (t : Fin 16) (w : Fin 32) (l : Fin 32) (c : Fin 64) :
    shapeCast S8192x32x64 (transpose S2x8x16x32x32x64 [0, 1, 2, 4, 3, 5] x transposes_S2x8x16x32x32x64_S2x8x16x32x32x64_0_1_2_4_3_5)
        shapeCasts_S2x8x16x32x32x64_S8192x32x64 (ix3 (row b h t w) l c)
      = x (ix6 b h t l w c) := by
  have hpos : (S2x8x16x32x32x64.rowMajor (ix6 b h t w l c)).val = (S8192x32x64.rowMajor (ix3 (row b h t w) l c)).val := by
    rw [Shape.rowMajor_val_six, Shape.rowMajor_val_three]
    show ((((b.val * 8 + h.val) * 16 + t.val) * 32 + w.val) * 32 + l.val) * 64 + c.val = ((row b h t w).val * 32 + l.val) * 64 + c.val
    rw [row_val]
  refine (shapeCast_apply _ _ (ix3 (row b h t w) l c) (ix6 b h t w l c) hpos).trans ?_
  exact transpose_apply _ _ _ _ (ix6 b h t l w c) (fun a => match a with
    | ⟨0, _⟩ => rfl | ⟨1, _⟩ => rfl | ⟨2, _⟩ => rfl | ⟨3, _⟩ => rfl | ⟨4, _⟩ => rfl | ⟨5, _⟩ => rfl)

theorem q_apply (x : A6.Idx → EReal) (b : Fin 2) (h : Fin 8) (t : Fin 16) (w : Fin 32) (l : Fin 32) (c : Fin 64) :
    val_main_v3 (F := Ideal) x (ix3 (row b h t w) l c) = x (ix6 b h t l w c) := folded_apply x b h t w l c
theorem k_apply (x : A6.Idx → EReal) (b : Fin 2) (h : Fin 8) (t : Fin 16) (w : Fin 32) (l : Fin 32) (c : Fin 64) :
    val_main_v4 (F := Ideal) x (ix3 (row b h t w) l c) = x (ix6 b h t l w c) := folded_apply x b h t w l c
theorem v_apply (x : A6.Idx → EReal) (b : Fin 2) (h : Fin 8) (t : Fin 16) (w : Fin 32) (l : Fin 32) (c : Fin 64) :
    val_main_v5 (F := Ideal) x (ix3 (row b h t w) l c) = x (ix6 b h t l w c) := folded_apply x b h t w l c

/-- The scaled scores: the inner product over the 64 channels of query row `l` and key row `m` of batch row `R`, times
    the scale, which is the word of 1/8 (`scale_eq`). -/
theorem scores_apply (x0 x1 : A6.Idx → EReal) (R : Fin 8192) (l m : Fin 32) :
    val_main_v10 (F := Ideal) x0 x1 (ix3 R l m)
      = (∑ c' : Fin 64, val_main_v3 (F := Ideal) x0 (ix3 R l c') * val_main_v4 (F := Ideal) x1 (ix3 R m c'))
          * Ideal.ofBits .f32 0x3E000000#32 := by
  rw [val_main_v10_apply, val_main_v8_apply, val_main_v9_apply, val_main_v7_apply, val_main_v6_apply,
    val_main_cst_0_apply, val_main_cst_apply]
  simp only [Ideal.mulf_def, Ideal.hostDivf_def, Ideal.hostUnary_sqrt_def, Ideal.ofBits_def, scale_eq]
  refine congrArg (· * _) (Finset.sum_congr rfl fun c' _ => ?_)
  refine congrArg₂ (· * ·) (congrArg _ (funext fun a => Fin.ext ?_)) (congrArg _ (funext fun a => Fin.ext ?_))
  · match a with | ⟨0, _⟩ => rfl | ⟨1, _⟩ => rfl | ⟨2, _⟩ => rfl
  · match a with | ⟨0, _⟩ => rfl | ⟨1, _⟩ => rfl | ⟨2, _⟩ => rfl

end Cert.AxialAttn.Ref

end
-- ==== Proof.RefSoftmax.lean ====
/-
  The reference's softmax, read at one entry.

  Row (R, l) of the scaled scores has 32 entries. The reference takes the row's maximum starting from -∞, takes the
  maximum with -∞ once more, subtracts it from every entry, exponentiates, sums the row starting from 0, and divides.
  At (R, l, m) this is `softRow` of the row.
-/
import proofs.«107295_j42975442764618_2_alg».proof.Proof.RefRows

noncomputable section

namespace Cert.AxialAttn.Ref

open Cert.ReferenceIdeal Cert.ReferenceIdeal.Gen Cert.ReferenceIdeal.Read
open Idealize.ShloMosaic Idealize.ShloMosaic.ValueIdx

theorem reduces_last : S8192x32x32.Reduces [2] S8192x32 := by decide

/-- Inserting `m'` on the last axis of (R, l) gives (R, l, m'). -/
theorem lift_last (R : Fin 8192) (l m' : Fin 32) : reduces_last.lift (ix2 R l) m' = ix3 R l m' :=
  funext fun a => Fin.ext (by match a with | ⟨0, _⟩ => rfl | ⟨1, _⟩ => rfl | ⟨2, _⟩ => rfl)

/-- The shifted row maximum: the fold of `max` from -∞ over the row's 32 entries, and `max` with -∞ again. -/
theorem rowmax_apply (x0 x1 : A6.Idx → EReal) (R : Fin 8192) (l : Fin 32) :
    val_main_v13 (F := Ideal) x0 x1 (ix2 R l)
      = max (Ideal.ofBits .f32 0xFF800000#32)
          ((Finset.univ : Finset (Fin 32)).fold max (Ideal.ofBits .f32 0xFF800000#32)
            (fun m' => val_main_v10 (F := Ideal) x0 x1 (ix3 R l m'))) := by
  rw [val_main_v13_apply, val_main_v12_apply, val_main_cst_2_apply]
  unfold val_main_v11
  generalize val_main_v10 (F := Ideal) x0 x1 = y
  rw [Host.reduce_eq_fold_single (FloatOps.maximumf (F := Ideal) (φ := .f32)) y _ reducesTo_S8192x32x32_S8192x32_d2
    reduces_last h_S_ (ix2 R l)]
  have hf : (y ∘ reduces_last.lift (ix2 R l)) = fun m' : Fin 32 => y (ix3 R l m') :=
    funext fun m' => congrArg y (lift_last R l m')
  rw [hf]
  rfl

/-- The exponential of an entry minus its row's shifted maximum. -/
theorem expo_apply (x0 x1 : A6.Idx → EReal) (R : Fin 8192) (l m : Fin 32) :
    val_main_v17 (F := Ideal) x0 x1 (ix3 R l m)
      = Ideal.exp (val_main_v10 (F := Ideal) x0 x1 (ix3 R l m)
          - max (Ideal.ofBits .f32 0xFF800000#32)
              ((Finset.univ : Finset (Fin 32)).fold max (Ideal.ofBits .f32 0xFF800000#32)
                (fun m' => val_main_v10 (F := Ideal) x0 x1 (ix3 R l m')))) := by
  rw [val_main_v17_apply, val_main_v16_apply, val_main_v15_apply, val_main_v14_apply]
  have e : idx_main_v14 (idx_main_v15 (ix3 R l m)) = ix2 R l :=
    funext fun a => Fin.ext (by match a with | ⟨0, _⟩ => rfl | ⟨1, _⟩ => rfl)
  rw [e, rowmax_apply]
  rfl

/-- The row's sum of exponentials: the sum starts from the word of zero, which is 0. -/
theorem rowsum_apply (x0 x1 : A6.Idx → EReal) (R : Fin 8192) (l : Fin 32) :
    val_main_v18 (F := Ideal) x0 x1 (ix2 R l) = ∑ m' : Fin 32, val_main_v17 (F := Ideal) x0 x1 (ix3 R l m') := by
  rw [val_main_v18_apply, val_main_cst_3_apply]
  simp only [Ideal.ofBits_def, Ideal.ofBits_zero_f32, zero_add]
  refine Finset.sum_congr rfl fun m' _ => congrArg _ (funext fun a => Fin.ext ?_)
  match a with | ⟨0, _⟩ => rfl | ⟨1, _⟩ => rfl | ⟨2, _⟩ => rfl

/-- The softmax weight at (R, l, m). -/
theorem weights_apply (x0 x1 : A6.Idx → EReal) (R : Fin 8192) (l m : Fin 32) :
    val_main_v21 (F := Ideal) x0 x1 (ix3 R l m)
      = softRow (Ideal.ofBits .f32 0xFF800000#32) (fun m' => val_main_v10 (F := Ideal) x0 x1 (ix3 R l m')) m := by
  rw [val_main_v21_apply, val_main_v20_apply, val_main_v19_apply]
  have e : idx_main_v19 (idx_main_v20 (ix3 R l m)) = ix2 R l :=
    funext fun a => Fin.ext (by match a with | ⟨0, _⟩ => rfl | ⟨1, _⟩ => rfl)
  rw [e, rowsum_apply, expo_apply]
  simp only [expo_apply, Ideal.hostDivf_def]
  rfl

end Cert.AxialAttn.Ref

end
-- ==== Proof.RefValue.lean ====
/-
  The reference computes `G`.

  The result at (b, h, t, l, w, c) is entry (b, h, t, w, l, c) of the unfolded output (the last swap), which is entry
  (R, l, c) of the folded output with R = ((b·8 + h)·16 + t)·32 + w: the sum over the 32 positions m of the softmax
  weight at (R, l, m) times the folded values at (R, m, c). Unfolding each folded input back to the arguments gives the
  row of attention that `G` names.
-/
import proofs.«107295_j42975442764618_2_alg».proof.Proof.RefSoftmax

noncomputable section

namespace Cert.AxialAttn.Ref

open Cert.ReferenceIdeal Cert.ReferenceIdeal.Gen Cert.ReferenceIdeal.Read
open Idealize.ShloMosaic Idealize.ShloMosaic.ValueIdx

/-- The folded output at (R, l, c). -/
theorem folded_out_apply (q k v : A6.Idx → EReal) (b : Fin 2) (h : Fin 8) (t : Fin 16) (w : Fin 32) (l : Fin 32) (c : Fin 64) :
    val_main_v22 (F := Ideal) q k v (ix3 (row b h t w) l c) = Gc q k v b h t l w c := by
  rw [val_main_v22_apply]
  unfold Gc attnRow
  refine Finset.sum_congr rfl fun m _ => ?_
  have el : lidx_main_v22 (ix3 (row b h t w) l c) m = ix3 (row b h t w) l m :=
    funext fun a => Fin.ext (by match a with | ⟨0, _⟩ => rfl | ⟨1, _⟩ => rfl | ⟨2, _⟩ => rfl)
  have er : ridx_main_v22 (ix3 (row b h t w) l c) m = ix3 (row b h t w) m c :=
    funext fun a => Fin.ext (by match a with | ⟨0, _⟩ => rfl | ⟨1, _⟩ => rfl | ⟨2, _⟩ => rfl)
  rw [el, er, weights_apply, v_apply]
  refine congrArg₂ (· * ·) (congrArg (fun f => softRow _ f m) (funext fun m' => ?_)) rfl
  rw [scores_apply]
  refine congrArg₂ (· * ·) (Finset.sum_congr rfl fun c' _ => ?_) rfl
  rw [q_apply, k_apply]

/-- The reference's result array is `G` of the three arguments. -/
theorem result_eq (q k v : A6.Idx → EReal) : val_main_v24 (F := Ideal) q k v = G q k v := by
  funext i
  obtain ⟨b, h, t, l, w, c, rfl⟩ : ∃ (b : Fin 2) (h : Fin 8) (t : Fin 16) (l : Fin 32) (w : Fin 32) (c : Fin 64),
      i = ix6 b h t l w c := ⟨i 0, i 1, i 2, i 3, i 4, i 5, eq_ix6 i⟩
  rw [G_ix6, val_main_v24_apply]
  have e24 : idx_main_v24 (ix6 b h t l w c) = ix6 b h t w l c :=
    funext fun a => Fin.ext (by
      match a with | ⟨0, _⟩ => rfl | ⟨1, _⟩ => rfl | ⟨2, _⟩ => rfl | ⟨3, _⟩ => rfl | ⟨4, _⟩ => rfl | ⟨5, _⟩ => rfl)
  rw [e24]
  unfold val_main_v23
  have hpos : (S8192x32x64.rowMajor (ix3 (row b h t w) l c)).val = (S2x8x16x32x32x64.rowMajor (ix6 b h t w l c)).val := by
    rw [Shape.rowMajor_val_six, Shape.rowMajor_val_three]
    show ((row b h t w).val * 32 + l.val) * 64 + c.val = ((((b.val * 8 + h.val) * 16 + t.val) * 32 + w.val) * 32 + l.val) * 64 + c.val
    rw [row_val]
  refine (shapeCast_apply _ _ (ix6 b h t w l c) (ix3 (row b h t w) l c) hpos).trans ?_
  exact folded_out_apply q k v b h t w l c

end Cert.AxialAttn.Ref

end
-- ==== Proof.lean ====
/-
  Axial attention along the fourth axis of a [2, 8, 16, 32, 32, 64] array: a kernel that folds (b, h, t) into one axis
  and the last two axes into one, and on each block of 8 slabs re-lays the 32 columns as batch rows, against a reference
  that swaps the fourth and fifth axes and folds (b, h, t, w) into one batch axis.

  Both compute, at (b, h, t, l, w, c), the same row of attention (`Cert.AxialAttn.G`): scores of query position l against
  the 32 key positions m (inner products over the 64 channels, times the scale), softmax over m, weighted sum of the
  values at (m, c). The two differ in how they arrange the array (every rearrangement is a relabelling of entries, read
  at an index), in the order of the sums (the same finite sums), and in the scale: the kernel multiplies by the literal
  1/8, the reference by one over the square root of 64, which is 1/8. No law of the extended reals beyond that is used,
  so the inputs' finiteness is never opened. The idealization rewrote nothing, so it preserves the kernel trivially.
-/
import proofs.«107295_j42975442764618_2_alg».proof.Defs
import proofs.«107295_j42975442764618_2_alg».proof.Proof.Gen.Kernel
import proofs.«107295_j42975442764618_2_alg».proof.Proof.Gen.Kernel.Skeleton
import proofs.«107295_j42975442764618_2_alg».proof.Proof.Gen.Kernel.Launch
import proofs.«107295_j42975442764618_2_alg».proof.Proof.Gen.Kernel.Points
import proofs.«107295_j42975442764618_2_alg».proof.Proof.Gen.Kernel.Frame
import proofs.«107295_j42975442764618_2_alg».proof.Proof.Gen.KernelIdeal
import proofs.«107295_j42975442764618_2_alg».proof.Proof.Gen.KernelIdeal.Skeleton
import proofs.«107295_j42975442764618_2_alg».proof.Proof.Gen.KernelIdeal.Launch
import proofs.«107295_j42975442764618_2_alg».proof.Proof.Gen.KernelIdeal.Points
import proofs.«107295_j42975442764618_2_alg».proof.Proof.Gen.KernelIdeal.Frame
import proofs.«107295_j42975442764618_2_alg».proof.Proof.Gen.ReferenceIdeal
import proofs.«107295_j42975442764618_2_alg».proof.Proof.Gen.ReferenceIdeal.Run
import proofs.«107295_j42975442764618_2_alg».proof.Proof.Gen.ReferenceIdeal.Read
import proofs.«107295_j42975442764618_2_alg».proof.Proof.Gen.Pre_finite_inputs
import proofs.«107295_j42975442764618_2_alg».proof.Proof.KerValue
import proofs.«107295_j42975442764618_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- And the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- On the extended reals, from memories that agree on the three arguments, both programs end with the result array at
    `G` of the arguments: the kernel's run and the reference's run, the reference's composed term being `G`. -/
theorem algebraic : Cert.algebraic_KernelIdeal_ReferenceIdeal := by
  intro m ρ m' ρ' _ hagree
  refine ⟨fun c => Cert.AxialAttn.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.AxialAttn.Ker.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.AxialAttn.Ref.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
